-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x512 : Shape := ⟨2, ![512, 512]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x2048x512 : Shape := ⟨3, ![16, 2048, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x2048x512 : Shape := ⟨3, ![1, 2048, 512]⟩
abbrev S1x512x512 : Shape := ⟨3, ![1, 512, 512]⟩
abbrev S2048x1536 : Shape := ⟨2, ![2048, 1536]⟩
abbrev S2048x512 : Shape := ⟨2, ![2048, 512]⟩
abbrev S1x1536 : Shape := ⟨2, ![1, 1536]⟩
abbrev S512x2048 : Shape := ⟨2, ![512, 2048]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S16x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1536, .f32⟩
  | .hbm, ⟨8, _⟩ => ⟨S1536, .f32⟩
  | .hbm, ⟨9, _⟩ => ⟨S16x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x1536, .f32⟩
  | .local _ .vmem, ⟨3, _⟩ => ⟨S1536, .f32⟩
  | .local _ .vmem, ⟨4, _⟩ => ⟨S1x512x512, .f32⟩
  | .local _ .vmem, ⟨5, _⟩ => ⟨S1x512x512, .f32⟩
  | .local _ .vmem, ⟨6, _⟩ => ⟨S2048x1536, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S512x512_S512x512_S512x512_S512x1536_d1 : Shape.Concatenates [S512x512, S512x512, S512x512] S512x1536 1
  concatenates_S512_S512_S512_S1536_d0 : Shape.Concatenates [S512, S512, S512] S1536 0
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S2048x1536 : S1x1536.Broadcasts S2048x1536
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  packedbf16_S2048x1536_S2048x1536_0_0 : (Rect.unit (s := S2048x1536) ![0, 0] S2048x1536.size inb_S2048x1536_S2048x1536_0_0).PackedRows (EltTy.packing .bf16)
  h_S512x512 : 0 < S512x512.numel
  inb_S2048x1536_S2048x512_0_512 : ∀ a, (![0, 512] : Fin 2 → Nat) a + S2048x512.size a ≤ S2048x1536.size a
  h_S2048x512 : 0 < S2048x512.numel
  inb_S2048x1536_S2048x512_0_1024 : ∀ a, (![0, 1024] : Fin 2 → Nat) a + S2048x512.size a ≤ S2048x1536.size a
  reduces_S512x2048_S512 : S512x2048.Reduces [1] S512
  shapeCasts_S512_S512x1 : S512.ShapeCasts S512x1
  broadcasts_S512x1_S512x2048 : S512x1.Broadcasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x512_S512x1536_S2048x1536_1_0_0_1_n_n_wf : DotDims.WF S2048x512 S512x1536 S2048x1536 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S2048x1536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x2048x512.size a
  hwx0_0 : ∀ i : grid0.Coords, EltTy.bits .f32 = 32 ∨ (Rect.block (s := S16x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x512.size a
  hwx0_3 : ∀ i : grid0.Coords, EltTy.bits .f32 = 32 ∨ (Rect.block (s := S16x2048x512) S1x512x512.size (cc0_transform_3 i) (hinb0_3 i)).WholeWords (EltTy.packing .f32)

variable [Facts₀]

def dot_S2048x512_S512x1536_S2048x1536_1_0_0_1_n_n : DotDims S2048x512 S512x1536 S2048x1536 where
  lhsContracting := [1]
  rhsContracting := [0]
  lhsNonContracting := [0]
  rhsNonContracting := [1]
  lhsBatch := []
  rhsBatch := []
  wf := dot_S2048x512_S512x1536_S2048x1536_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S512x512 : Shape := ⟨2, ![512, 512]⟩
abbrev S512 : Shape := ⟨1, ![512]⟩
abbrev S1x1x512 : Shape := ⟨3, ![1, 1, 512]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x2048x512, .f32⟩
  | .hbm, ⟨8, _⟩ => ⟨S1x1x512, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S1x1x512, .f32⟩
  | .hbm, ⟨13, _⟩ => ⟨S16x2048x512, .f32⟩
  | .hbm, ⟨14, _⟩ => ⟨S16x2048x512, .f32⟩
  | .hbm, ⟨15, _⟩ => ⟨S16x2048x512, .f32⟩
  | .hbm, ⟨16, _⟩ => ⟨S1x1x512, .f32⟩
  | .hbm, ⟨17, _⟩ => ⟨S16x2048x512, .f32⟩
  | .hbm, ⟨18, _⟩ => ⟨S16x2048x512, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S512x512_S16x2048x512_2_0_01_1_n_n_wf : DotDims.WF S16x2048x512 S512x512 S16x2048x512 [2] [0] [0, 1] [1] [] []
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.KitB.lean ====
/-
  The frame's shared vocabulary for one printed program: the buffers' contents when the region is entered
  (the two concatenated operands written, every argument as launched), each window's block at a grid point,
  the body's one branch condition in closed form over the grid, and the memrefs the body is called with.
-/
import proofs.«156609_j80891414053563_2_alg».proof.Proof.Gen.Kernel.Launch
import proofs.«156609_j80891414053563_2_alg».proof.Proof.Gen.Kernel.Skeleton
import proofs.«156609_j80891414053563_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents, with the two
    concatenated operands (the [512,1536] weight and the [1536] bias) written by the two host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two concatenations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A concatenation writes its own result only, so every argument array is found as launched. -/
theorem V_arg (c : Dev nD) (b : Ref sig .tc) (h7 : b ≠ main_v0) (h8 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h7, StableHlo.devRef_ne_of_ne h8⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)
theorem V_main_arg6 (c : Dev nD) : V m c main_arg6 = m ((c : Thread nD τ).loc main_arg6) := V_arg m c _ (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not
    (unfetched, the block index has not moved), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The x array is an input window's array, so it ends as it began; the six weight and bias arrays are staged by no
    window and written by no host line, so they end as the region found them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's one branch: the projection is recomputed at the first query tile of each batch -/

/-- The condition of the body's `scf.if`: the query-tile coordinate is zero. -/
abbrev cond0_0 (i : grid0.Coords) : Prop := (Scalar.cmpi .ne (Scalar.extui (Scalar.cmpi .eq (BitVec.ofNat 32 (i 1).val) 0#32)) 0#32) = 1#1
/-- The grid is 16 batches of 4 query tiles, the tile the fast axis: the condition holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is idle at any point. -/
theorem liveAt (w : Fin cfg0.W) (t : Fin cfg0.N) : cfg0.idle w (grid0.coords t) = false := rfl

/-! ## The memrefs the body is called with -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch holding the projected rows [q | k | v] of the current batch. -/
abbrev scM0_0 : Memref sig .tc .vmem S2048x1536 .bf16 := Memref.whole cc0_scratch0
abbrev VS0_0 : View sig .tc .vmem S2048x1536 .bf16 := scM0_0.view
/-- One staging buffer of the output window, through which its contents are stated. -/
abbrev VO0_3 : View sig .tc .vmem S1x512x512 .f32 := (Memref.whole cc0_stg3_0 : Memref sig .tc .vmem S1x512x512 .f32).view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.RunAB.lean ====
/-
  The kernel body's run at a first query tile of a batch: the projection is computed and stored into the scratch,
  then the attention output of the tile is computed from what was just stored.
-/
import proofs.«156609_j80891414053563_2_alg».proof.Proof.KitB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first query tile (the branch taken), on whole memrefs: the three inputs at their contents, the
    output's buffer and the scratch at anything. It loads the inputs, stores the projected rows over the whole
    scratch, reads the query tile and the key and value columns back out of it, and stores the attention output
    over the whole output buffer. The pieces each of the two ends with are found by the run. -/
noncomputable def kernelRun0_A (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) :
    Σ' (L3 : List (View.Piece (Elt F) S1x512x512 .f32)), { LS0 : List (View.Piece (Elt F) S2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.RunBB.lean ====
/-
  The kernel body's run at a later query tile of a batch: the projection is read from the scratch as the tile
  before left it.
-/
import proofs.«156609_j80891414053563_2_alg».proof.Proof.RunAB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later query tile (the branch not taken), on whole memrefs: the three inputs untouched, the scratch
    at the projected rows the tile before left, the output's buffer at anything. It reads the query tile and the key
    and value columns out of the scratch, which it hands back as it was, and stores the attention output over the
    whole output buffer. -/
noncomputable def kernelRun0_B (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) :
    { L3 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.Kernel.Hand

end
-- ==== Proof.FrameB.lean ====
/-
  The frame of one printed program: what the two cases of the body leave in the output buffer and in the scratch,
  those contents point by point over the grid, the pipeline's proof data, the body obligation at every point, and
  the run of @main with the frame claim read off its post.
-/
import proofs.«156609_j80891414053563_2_alg».proof.Proof.RunBB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer and in the scratch -/

/-- At a first query tile the one store into the output buffer covers it. -/
theorem cover0_A_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) (y : S1x512x512.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x512x512.size (by sl_kernel_rfl) y

/-- What a first query tile leaves in the output buffer. -/
def out0_A_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) : Vec F S1x512x512 .f32 :=
  VO0_3.read (Elt F) (VO0_3.writes (Elt F) VO0_3.junk (kernelRun0_A c i arg2 harg2 arg3 harg3 arg4 harg4 arg5 harg5 arg6 harg6 hc0 x0 x1 x2).1)

/-- At a first query tile the one store into the scratch covers it. -/
theorem scover0_A_0 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) (y : S2048x1536.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x1536.size (by sl_kernel_rfl) y

/-- What a first query tile leaves in the scratch: the batch's projected rows. -/
def sout0_A_0 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) : Vec F S2048x1536 .bf16 :=
  VS0_0.read (Elt F) (VS0_0.writes (Elt F) VS0_0.junk (kernelRun0_A c i arg2 harg2 arg3 harg3 arg4 harg4 arg5 harg5 arg6 harg6 hc0 x0 x1 x2).2.1)

/-- At a later query tile the one store into the output buffer covers it. -/
theorem cover0_B_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) (y : S1x512x512.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x512x512.size (by sl_kernel_rfl) y

/-- What a later query tile leaves in the output buffer, given the scratch's contents. -/
def out0_B_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) : Vec F S1x512x512 .f32 :=
  VO0_3.read (Elt F) (VO0_3.writes (Elt F) VO0_3.junk (kernelRun0_B c i arg2 harg2 arg3 harg3 arg4 harg4 arg5 harg5 arg6 harg6 hc0 x0 x1 x2 xs0).1)

/-! ## What the output buffer and the scratch hold after each point -/

/-- After the body at position `n`: the output buffer's contents and the scratch's. At a first query tile both
    are computed from the point's input blocks; at a later one the scratch is what the point before left, and the
    output is computed from it. -/
def outsAt0 (c : Dev nD) : (n : ℕ) → n < cfg0.N → Vec F S1x512x512 .f32 × Vec F S2048x1536 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩),
             sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       (outsAt0 c n (Nat.lt_of_succ_lt hn)).2)

theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch holds anything; afterwards it
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the closed form of the branch condition says which
    case the point is in; the invariant hands the body the scratch (at anything before the first point, else at what
    the point before left) and takes it back at this point's contents; the output buffer, at anything, comes back
    covered by the case's one store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt 0 t], after0_0]
  rw [show (dats m 0 c).leavesExact 1 t = owns (c : Thread nD τ) (ms0_1 t) fullShare ((dats m 0 c).after 1 t) from by
    unfold Dat.leavesExact; rw [liveAt 1 t], after0_1]
  rw [show (dats m 0 c).leavesExact 2 t = owns (c : Thread nD τ) (ms0_2 t) fullShare ((dats m 0 c).after 2 t) from by
    unfold Dat.leavesExact; rw [liveAt 2 t], after0_2]
  rw [show (dats m 0 c).leavesExact 3 t = owns (c : Thread nD τ) (ms0_3 t) fullShare ((dats m 0 c).after 3 t) from by
    unfold Dat.leavesExact; rw [liveAt 3 t], after0_3]
  by_cases h0 : t.val % 4 = 0
  · rw [outsAt0_A m c t h0]
    unfold out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B m c t h0]
    unfold out0_B_3; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates without a fault; at the end every array of the pipeline holds what
    the library computes from the proof data, and every other unscoped buffer what the region found in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any instance: the program runs to the end, faults nowhere, and its seven argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KitI.lean ====
/-
  The frame's shared vocabulary for one printed program: the buffers' contents when the region is entered
  (the two concatenated operands written, every argument as launched), each window's block at a grid point,
  the body's one branch condition in closed form over the grid, and the memrefs the body is called with.
-/
import proofs.«156609_j80891414053563_2_alg».proof.Proof.Gen.KernelIdeal.Launch
import proofs.«156609_j80891414053563_2_alg».proof.Proof.Gen.KernelIdeal.Skeleton
import proofs.«156609_j80891414053563_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents, with the two
    concatenated operands (the [512,1536] weight and the [1536] bias) written by the two host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two concatenations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A concatenation writes its own result only, so every argument array is found as launched. -/
theorem V_arg (c : Dev nD) (b : Ref sig .tc) (h7 : b ≠ main_v0) (h8 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h7, StableHlo.devRef_ne_of_ne h8⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)
theorem V_main_arg6 (c : Dev nD) : V m c main_arg6 = m ((c : Thread nD τ).loc main_arg6) := V_arg m c _ (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not
    (unfetched, the block index has not moved), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The x array is an input window's array, so it ends as it began; the six weight and bias arrays are staged by no
    window and written by no host line, so they end as the region found them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's one branch: the projection is recomputed at the first query tile of each batch -/

/-- The condition of the body's `scf.if`: the query-tile coordinate is zero. -/
abbrev cond0_0 (i : grid0.Coords) : Prop := (Scalar.cmpi .ne (Scalar.extui (Scalar.cmpi .eq (BitVec.ofNat 32 (i 1).val) 0#32)) 0#32) = 1#1
/-- The grid is 16 batches of 4 query tiles, the tile the fast axis: the condition holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is idle at any point. -/
theorem liveAt (w : Fin cfg0.W) (t : Fin cfg0.N) : cfg0.idle w (grid0.coords t) = false := rfl

/-! ## The memrefs the body is called with -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch holding the projected rows [q | k | v] of the current batch. -/
abbrev scM0_0 : Memref sig .tc .vmem S2048x1536 .bf16 := Memref.whole cc0_scratch0
abbrev VS0_0 : View sig .tc .vmem S2048x1536 .bf16 := scM0_0.view
/-- One staging buffer of the output window, through which its contents are stated. -/
abbrev VO0_3 : View sig .tc .vmem S1x512x512 .f32 := (Memref.whole cc0_stg3_0 : Memref sig .tc .vmem S1x512x512 .f32).view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunAI.lean ====
/-
  The kernel body's run at a first query tile of a batch: the projection is computed and stored into the scratch,
  then the attention output of the tile is computed from what was just stored.
-/
import proofs.«156609_j80891414053563_2_alg».proof.Proof.KitI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first query tile (the branch taken), on whole memrefs: the three inputs at their contents, the
    output's buffer and the scratch at anything. It loads the inputs, stores the projected rows over the whole
    scratch, reads the query tile and the key and value columns back out of it, and stores the attention output
    over the whole output buffer. The pieces each of the two ends with are found by the run. -/
noncomputable def kernelRun0_A (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) :
    Σ' (L3 : List (View.Piece (Elt F) S1x512x512 .f32)), { LS0 : List (View.Piece (Elt F) S2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.RunBI.lean ====
/-
  The kernel body's run at a later query tile of a batch: the projection is read from the scratch as the tile
  before left it.
-/
import proofs.«156609_j80891414053563_2_alg».proof.Proof.RunAI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later query tile (the branch not taken), on whole memrefs: the three inputs untouched, the scratch
    at the projected rows the tile before left, the output's buffer at anything. It reads the query tile and the key
    and value columns out of the scratch, which it hands back as it was, and stores the attention output over the
    whole output buffer. -/
noncomputable def kernelRun0_B (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) :
    { L3 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.KernelIdeal.Hand

end
-- ==== Proof.FrameI.lean ====
/-
  The frame of one printed program: what the two cases of the body leave in the output buffer and in the scratch,
  those contents point by point over the grid, the pipeline's proof data, the body obligation at every point, and
  the run of @main with the frame claim read off its post.
-/
import proofs.«156609_j80891414053563_2_alg».proof.Proof.RunBI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer and in the scratch -/

/-- At a first query tile the one store into the output buffer covers it. -/
theorem cover0_A_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) (y : S1x512x512.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x512x512.size (by sl_kernel_rfl) y

/-- What a first query tile leaves in the output buffer. -/
def out0_A_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) : Vec F S1x512x512 .f32 :=
  VO0_3.read (Elt F) (VO0_3.writes (Elt F) VO0_3.junk (kernelRun0_A c i arg2 harg2 arg3 harg3 arg4 harg4 arg5 harg5 arg6 harg6 hc0 x0 x1 x2).1)

/-- At a first query tile the one store into the scratch covers it. -/
theorem scover0_A_0 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) (y : S2048x1536.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x1536.size (by sl_kernel_rfl) y

/-- What a first query tile leaves in the scratch: the batch's projected rows. -/
def sout0_A_0 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) : Vec F S2048x1536 .bf16 :=
  VS0_0.read (Elt F) (VS0_0.writes (Elt F) VS0_0.junk (kernelRun0_A c i arg2 harg2 arg3 harg3 arg4 harg4 arg5 harg5 arg6 harg6 hc0 x0 x1 x2).2.1)

/-- At a later query tile the one store into the output buffer covers it. -/
theorem cover0_B_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) (y : S1x512x512.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x512x512.size (by sl_kernel_rfl) y

/-- What a later query tile leaves in the output buffer, given the scratch's contents. -/
def out0_B_3 (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) : Vec F S1x512x512 .f32 :=
  VO0_3.read (Elt F) (VO0_3.writes (Elt F) VO0_3.junk (kernelRun0_B c i arg2 harg2 arg3 harg3 arg4 harg4 arg5 harg5 arg6 harg6 hc0 x0 x1 x2 xs0).1)

/-! ## What the output buffer and the scratch hold after each point -/

/-- After the body at position `n`: the output buffer's contents and the scratch's. At a first query tile both
    are computed from the point's input blocks; at a later one the scratch is what the point before left, and the
    output is computed from it. -/
def outsAt0 (c : Dev nD) : (n : ℕ) → n < cfg0.N → Vec F S1x512x512 .f32 × Vec F S2048x1536 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩),
             sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       (outsAt0 c n (Nat.lt_of_succ_lt hn)).2)

theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch holds anything; afterwards it
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the closed form of the branch condition says which
    case the point is in; the invariant hands the body the scratch (at anything before the first point, else at what
    the point before left) and takes it back at this point's contents; the output buffer, at anything, comes back
    covered by the case's one store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt 0 t], after0_0]
  rw [show (dats m 0 c).leavesExact 1 t = owns (c : Thread nD τ) (ms0_1 t) fullShare ((dats m 0 c).after 1 t) from by
    unfold Dat.leavesExact; rw [liveAt 1 t], after0_1]
  rw [show (dats m 0 c).leavesExact 2 t = owns (c : Thread nD τ) (ms0_2 t) fullShare ((dats m 0 c).after 2 t) from by
    unfold Dat.leavesExact; rw [liveAt 2 t], after0_2]
  rw [show (dats m 0 c).leavesExact 3 t = owns (c : Thread nD τ) (ms0_3 t) fullShare ((dats m 0 c).after 3 t) from by
    unfold Dat.leavesExact; rw [liveAt 3 t], after0_3]
  by_cases h0 : t.val % 4 = 0
  · rw [outsAt0_A m c t h0]
    unfold out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B m c t h0]
    unfold out0_B_3; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates without a fault; at the end every array of the pipeline holds what
    the library computes from the proof data, and every other unscoped buffer what the region found in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any instance: the program runs to the end, faults nowhere, and its seven argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Pieces.lean ====
/-
  What the idealized kernel's body leaves, as values. At a first query tile of a batch the scratch ends holding the
  projection payload of the three input blocks, and the output buffer the attention payload of three rectangles of
  that scratch; at a later tile the output buffer holds the attention payload of the same three rectangles of the
  scratch as the tile before left it.
-/
import proofs.«156609_j80891414053563_2_alg».proof.Proof.FrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz1 : (![0] : Fin 1 → Nat) = fun _ => 0 := funext fun a => by match a with | ⟨0, _⟩ => rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The three rectangles the body reads the projected rows through: the query tile's rows of the first 512 columns, and
    all rows of the key columns (512 to 1023) and of the value columns (1024 to 1535). -/
abbrev rq (i : grid0.Coords) : Rect S2048x1536 := Rect.unit (s := S2048x1536) (k0_off1 i) S512x512.size (k0_off1_inb i)
abbrev rk : Rect S2048x1536 := Rect.unit (s := S2048x1536) ![0, 512] S2048x512.size inb_S2048x1536_S2048x512_0_512
abbrev rv : Rect S2048x1536 := Rect.unit (s := S2048x1536) ![0, 1024] S2048x512.size inb_S2048x1536_S2048x512_0_1024

/-- A load, through a rectangle, of what a list of stores over an unnamed buffer leaves reads the stores' closed form
    through that rectangle. -/
theorem readCov_ld [∀ e, Nonempty (Elt F e)] {sg : RefSig} {κ : Kind} {sp : Space} {S : Shape} {e : EltTy}
    (v : View sg κ sp S e) (L : List (View.Piece (Elt F) S e)) (r : Rect S) :
    v.readCov L r.toLoadRect = View.ld (View.canon L) r := by
  rw [View.readCov_eq_canon']

/-- At a first query tile the scratch ends at the projection payload of the three input blocks. -/
theorem sout_A (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) :
    sout0_A_0 c i arg2 harg2 arg3 harg3 arg4 harg4 arg5 harg5 arg6 harg6 hc0 x0 x1 x2 = k0_pay1 x0 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread,
    View.ld_unit_zero (S := S1x2048x512) hz3, View.ld_unit_zero (S := S512x1536) hz2, View.ld_unit_zero (S := S1536) hz1]

/-- At a later query tile the output buffer ends at the attention payload of the scratch's three rectangles. -/
theorem out_B (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : ¬cond0_0 i)
    (x0 : Vec F S1x2048x512 .f32) (x1 : Vec F S512x1536 .f32) (x2 : Vec F S1536 .f32) (xs0 : Vec F S2048x1536 .bf16) :
    out0_B_3 c i arg2 harg2 arg3 harg3 arg4 harg4 arg5 harg5 arg6 harg6 hc0 x0 x1 x2 xs0
      = k0_pay2 (View.ld xs0 (rq i)) (View.ld xs0 rk) (View.ld xs0 rv) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3]
  simp only [View.readAt_eq_ld, harg6.read_unread]
  rfl

/-- At a first query tile the output buffer ends at the attention payload of the three rectangles of the projection
    just stored. -/
theorem out_A (c : Dev nD) (i : grid0.Coords) (arg2 : Memref sig .tc .vmem S1x2048x512 .f32) (harg2 : arg2.IsWhole) (arg3 : Memref sig .tc .vmem S512x1536 .f32) (harg3 : arg3.IsWhole) (arg4 : Memref sig .tc .vmem S1536 .f32) (harg4 : arg4.IsWhole) (arg5 : Memref sig .tc .vmem S1x512x512 .f32) (harg5 : arg5.IsWhole) (arg6 : Memref sig .tc .vmem S2048x1536 .bf16) (harg6 : arg6.IsWhole) (hc0 : cond0_0 i)
    (x0 : Vec F S1x2048x512 .f32) (x1 : Vec F S512x1536 .f32) (x2 : Vec F S1536 .f32) :
    out0_A_3 c i arg2 harg2 arg3 harg3 arg4 harg4 arg5 harg5 arg6 harg6 hc0 x0 x1 x2
      = k0_pay2 (View.ld (k0_pay1 x0 x1 x2) (rq i)) (View.ld (k0_pay1 x0 x1 x2) rk) (View.ld (k0_pay1 x0 x1 x2) rv) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, View.read_writes_junk_eq_canon, readCov_ld, View.canon_unit_zero (S := S2048x1536) hz2,
    harg2.read_unread, harg3.read_unread, harg4.read_unread,
    View.ld_unit_zero (S := S1x2048x512) hz3, View.ld_unit_zero (S := S512x1536) hz2, View.ld_unit_zero (S := S1536) hz1]
  rfl

end Cert.KernelIdeal.Hand

end
-- ==== Proof.Attn.lean ====
/-
  Scaled dot-product attention over the extended reals, index by index.

  For x : [16, 2048, 512], three weight matrices [512, 512] and three bias vectors [512]: the query, key and value rows
  of batch b are the affine images x W + bias; the score of query row s against key row j is their inner product times
  the scale; a row of scores is turned into weights by subtracting the row's maximum, exponentiating, and dividing by
  the sum of the exponentials; the output at (b, s, d) is the weighted sum over j of the value rows' entry d.

  Both programs compute exactly this expression, operation for operation: no law of the extended reals beyond the
  re-indexing of finite sums is needed to join them, so finiteness of the inputs is never used.
-/
import Idealize.ShloMosaic.PureOps.Ideal
import Idealize.ShloMosaic.Lib.ValueIdx
import Mathlib.Data.Finset.Fold

noncomputable section

namespace Cert.Attn

open Idealize.ShloMosaic Idealize.ShloMosaic.ValueIdx

abbrev SX : Shape := ⟨3, ![16, 2048, 512]⟩
abbrev SW : Shape := ⟨2, ![512, 512]⟩
abbrev SB : Shape := ⟨1, ![512]⟩

/-- The score scale: the word both programs print for 1/8. -/
def scale : EReal := Ideal.ofBits .f32 0x3E000000#32
/-- The value a row maximum starts from: the word both programs print for minus infinity. -/
def floor : EReal := Ideal.ofBits .f32 0xFF800000#32

/-- One projection: entry e of row (b, s) of x W + bias. -/
def proj (x : SX.Idx → EReal) (W : SW.Idx → EReal) (β : SB.Idx → EReal) (b : Fin 16) (s : Fin 2048) (e : Fin 512) : EReal :=
  (∑ d : Fin 512, x (ix3 b s d) * W (ix2 d e)) + β (ix1 e)

/-- The scaled score of a query row against key row j. -/
def score (qr : Fin 512 → EReal) (k : Fin 2048 → Fin 512 → EReal) (j : Fin 2048) : EReal :=
  (∑ e : Fin 512, qr e * k j e) * scale

/-- A row's maximum, folded from the floor. -/
def rowMax (σ : Fin 2048 → EReal) : EReal := (Finset.univ : Finset (Fin 2048)).fold max floor σ

/-- The shifted exponential of entry j of a row. -/
def expo (σ : Fin 2048 → EReal) (j : Fin 2048) : EReal := Ideal.exp (σ j - rowMax σ)

/-- The softmax weight of entry j of a row. -/
def weight (σ : Fin 2048 → EReal) (j : Fin 2048) : EReal := Ideal.div (expo σ j) (∑ j' : Fin 2048, expo σ j')

/-- One output entry: the weights of a query row's scores against every key row, applied to the value rows' entry d. -/
def attnRow (qr : Fin 512 → EReal) (k v : Fin 2048 → Fin 512 → EReal) (d : Fin 512) : EReal :=
  ∑ j : Fin 2048, weight (score qr k) j * v j d

/-- The whole result array. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  attnRow (proj x Wq bq (i 0) (i 1)) (proj x Wk bk (i 0)) (proj x Wv bv (i 0)) (i 2)

/-- The maximum of the floor and a row maximum folded from the floor is that row maximum. -/
theorem max_floor_rowMax (σ : Fin 2048 → EReal) : max floor (rowMax σ) = rowMax σ :=
  max_eq_right ((Finset.le_fold_max _).mpr (Or.inl le_rfl))

end Cert.Attn

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«156609_j80891414053563_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibDotNT.lean ====
/-
  A matrix product against a transposed right operand, re-indexed by the contracted coordinate.

  For a dot of an [n, K] operand with an [M, K] operand into [n, M] that contracts axis 1 of both (x · wᵀ: a linear
  layer's weight stored with its output columns as rows, or queries against keys) and has no batch axes, the sum over
  the contraction index of left(row i, k) * right(column i, k) is the sum over k : Fin K of L (i 0, k) * R (i 1, k).
-/
import Idealize.ShloMosaic.PureOps.Ideal.Laws
import Idealize.ShloMosaic.Lib.ValueIdx

namespace Cert.LibDotNT

open Idealize.ShloMosaic Idealize.ShloMosaic.ValueIdx

variable {n K M : Nat}

/-- The dimension numbers of x · wᵀ: contract axis 1 with axis 1, keep axis 0 of each, no batch axes. -/
structure IsNT (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum of x · wᵀ at output index `i` is the sum over the contracted coordinate. -/
theorem sum_contr {α : Type} [AddCommMonoid α] (d : DotDims ⟨2, ![n, K]⟩ ⟨2, ![M, K]⟩ ⟨2, ![n, M]⟩) (hd : IsNT d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

end Cert.LibDotNT
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The idealized kernel's two payloads, read at an index over the extended reals.

  The projection payload of an x block [1, 2048, 512], the concatenated weight [512, 1536] and the concatenated bias
  [1536] is, at (s, e), the inner product of row s of the block with column e of the weight, plus entry e of the bias
  (the changes of float format are the identity on the extended reals).

  The attention payload of a query tile q [512, 512], the keys k [2048, 512] and the values v [2048, 512] is, at row r
  and column d, the softmax weights of row r's scaled scores against every key row applied to column d of the values:
  the matrix-unit product q kᵀ is the inner product of rows, the two lane reductions are a row's maximum and a row's sum,
  and the keep-dimension column forms read the reduced vector at the row.
-/
import proofs.«156609_j80891414053563_2_alg».proof.Proof.Gen.KernelIdeal.Skeleton
import proofs.«156609_j80891414053563_2_alg».proof.Proof.Attn
import proofs.«156609_j80891414053563_2_alg».proof.Proof.LibDotApply
import proofs.«156609_j80891414053563_2_alg».proof.Proof.LibDotNT
import proofs.«156609_j80891414053563_2_alg».proof.Proof.LibColumn
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Cert.Attn

/-- The projection payload at (s, e). -/
theorem pay1_apply (x0 : FVec Ideal S1x2048x512 .f32) (w : FVec Ideal S512x1536 .f32) (β : FVec Ideal S1536 .f32)
    (s : Fin 2048) (e : Fin 1536) :
    k0_pay1 (F := Ideal) x0 w β (ix2 s e)
      = (∑ d : Fin 512, x0 (ix3 (0 : Fin 1) s d) * w (ix2 d e)) + β (ix1 e) := by
  unfold k0_pay1
  refine (congrFun (shapeCast_self _ _) _).trans ?_
  show matmul (F := Ideal) _ none _ _ _ (ix2 s e) + broadcastTo _ _ _ (ix2 s e) = _
  refine congrArg₂ (· + ·) ?_ ?_
  · refine (Cert.LibDotApply.matmul_zero_apply _ ⟨rfl, rfl, rfl, rfl, rfl, rfl⟩ none _ _ s e).trans ?_
    refine Finset.sum_congr rfl fun d _ => congrArg₂ (· * ·) ?_ ?_
    · exact shapeCast_1ab_ab_apply x0 _ s d
    · exact congrFun (shapeCast_self w _) _
  · exact (broadcastTo_1b_ab_apply _ _ s e).trans
      ((shapeCast_a_1a_apply _ _ (0 : Fin 1) e).trans (congrFun (shapeCast_self β _) _))

/-- The lane index a row reduction of a [512, 2048] matrix inserts at row r is (r, j). -/
theorem lift_row (h : S512x2048.Reduces [1] S512) (r : Fin 512) (j : Fin 2048) :
    h.lift (ix1 r) j = ix2 r j :=
  funext fun a => Fin.ext (by match a with | ⟨0, _⟩ => rfl | ⟨1, _⟩ => rfl)

/-- The attention payload at row r, column d. -/
theorem pay2_apply (q : FVec Ideal S512x512 .bf16) (k v : FVec Ideal S2048x512 .bf16) (r d : Fin 512) :
    k0_pay2 (F := Ideal) q k v (ix3 (0 : Fin 1) r d)
      = attnRow (fun e => q (ix2 r e)) (fun j e => k (ix2 j e)) (fun j e => v (ix2 j e)) d := by
  -- the scaled scores of row r
  have hσ : ∀ j : Fin 2048,
      mulf (matmul dot_S512x512_S2048x512_S512x2048_1_1_0_0_n_n none q k (constant S512x2048 .f32 0x00000000#32))
        (broadcast S512x2048 (Scalar.ofBits (F := Ideal) .f32 0x3E000000#32)) (ix2 r j)
      = score (fun e => q (ix2 r e)) (fun j e => k (ix2 j e)) j := fun j => by
    show matmul (F := Ideal) _ none q k _ (ix2 r j) * _ = _
    unfold score
    refine congrArg₂ (· * ·) ?_ rfl
    exact (Ideal.matmul_constant_zero_apply _ none q k (ix2 r j)).trans
      (Cert.LibDotNT.sum_contr _ ⟨rfl, rfl, rfl, rfl, rfl, rfl⟩ (fun a b => q a * k b) (ix2 r j))
  unfold k0_pay2
  refine (shapeCast_ab_1ab_apply _ _ (0 : Fin 1) r d).trans ?_
  refine (Cert.LibDotApply.matmul_zero_apply _ ⟨rfl, rfl, rfl, rfl, rfl, rfl⟩ none _ _ r d).trans ?_
  unfold attnRow
  refine Finset.sum_congr rfl fun j _ => congrArg (· * v (ix2 j d)) ?_
  -- the row maximum, read through the keep-dimension column forms
  have hmax : ∀ j : Fin 2048,
      broadcastTo S512x2048 (shapeCast S512x1 (multiReduction .maximumf [1] S512
        (mulf (matmul dot_S512x512_S2048x512_S512x2048_1_1_0_0_n_n none q k (constant S512x2048 .f32 0x00000000#32))
          (broadcast S512x2048 (Scalar.ofBits (F := Ideal) .f32 0x3E000000#32)))
        0xFF800000#32 reduces_S512x2048_S512 (.inl rfl) rfl) shapeCasts_S512_S512x1) broadcasts_S512x1_S512x2048 (ix2 r j)
      = rowMax (score (fun e => q (ix2 r e)) (fun j e => k (ix2 j e))) := fun j => by
    refine (Cert.LibColumn.broadcastTo_a1_ab_apply _ _ r j).trans ?_
    refine (Cert.LibColumn.shapeCast_a_a1_apply _ _ r (0 : Fin 1)).trans ?_
    refine (Ideal.multiReduction_maximumf_single _ _ reduces_S512x2048_S512 (.inl rfl) rfl (ix1 r)).trans ?_
    unfold rowMax
    show (Finset.univ : Finset (Fin 2048)).fold max _ (fun j' : Fin 2048 => mulf (F := Ideal) _ _ (reduces_S512x2048_S512.lift (ix1 r) j')) = _
    refine congrArg (fun f => Finset.fold max _ f (Finset.univ : Finset (Fin 2048))) (funext fun j' : Fin 2048 => ?_)
    exact (congrArg (mulf (F := Ideal) _ _) (lift_row _ r j')).trans (hσ j')
  -- the shifted exponential
  have hexp : ∀ j : Fin 2048,
      exp (subf (mulf (matmul dot_S512x512_S2048x512_S512x2048_1_1_0_0_n_n none q k (constant S512x2048 .f32 0x00000000#32))
          (broadcast S512x2048 (Scalar.ofBits (F := Ideal) .f32 0x3E000000#32)))
        (broadcastTo S512x2048 (shapeCast S512x1 (multiReduction .maximumf [1] S512
          (mulf (matmul dot_S512x512_S2048x512_S512x2048_1_1_0_0_n_n none q k (constant S512x2048 .f32 0x00000000#32))
            (broadcast S512x2048 (Scalar.ofBits (F := Ideal) .f32 0x3E000000#32)))
          0xFF800000#32 reduces_S512x2048_S512 (.inl rfl) rfl) shapeCasts_S512_S512x1) broadcasts_S512x1_S512x2048)) (ix2 r j)
      = expo (score (fun e => q (ix2 r e)) (fun j e => k (ix2 j e))) j := fun j => by
    show Ideal.exp (mulf (F := Ideal) _ _ (ix2 r j) - broadcastTo _ _ _ (ix2 r j)) = _
    unfold expo
    rw [hσ j, hmax j]
  show Ideal.div (exp (F := Ideal) _ (ix2 r j)) (broadcastTo _ _ _ (ix2 r j)) = _
  unfold weight
  refine congrArg₂ Ideal.div (hexp j) ?_
  refine (Cert.LibColumn.broadcastTo_a1_ab_apply _ _ r j).trans ?_
  refine (Cert.LibColumn.shapeCast_a_a1_apply _ _ r (0 : Fin 1)).trans ?_
  refine (Ideal.multiReduction_add_single _ _ reduces_S512x2048_S512 (.inl rfl) rfl (ix1 r)).trans ?_
  show ∑ j' : Fin 2048, exp (F := Ideal) _ (reduces_S512x2048_S512.lift (ix1 r) j') = _
  refine Finset.sum_congr rfl fun j' _ => ?_
  exact (congrArg (exp (F := Ideal) _) (lift_row _ r j')).trans (hexp j')

end Cert.KernelIdeal.Hand

end
-- ==== Proof.Blocks.lean ====
/-
  The idealized kernel's blocks and what its scratch and output buffer hold at every grid point, over the extended
  reals. The grid is 16 batches of 4 query tiles, the tile the fast axis: point t is batch t / 4, tile t % 4. The x
  window's block at t is batch t / 4 of x; the weight and bias windows' blocks are the whole concatenated arrays; the
  output window's block at t is rows 512 (t % 4) to 512 (t % 4) + 511 of batch t / 4.

  The scratch holds, after every point t, the projection payload of batch t / 4: computed at the batch's first tile,
  carried unchanged through its other three. The output buffer holds, after point t, the attention payload of the
  query tile's rows and of the key and value columns of that scratch.
-/
import proofs.«156609_j80891414053563_2_alg».proof.Proof.Pieces
import proofs.«156609_j80891414053563_2_alg».proof.Proof.Payload
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

open Idealize.ShloMosaic.ValueIdx Idealize.ShloMosaic.StableHlo

variable (m : (ℓ : Loc nD τ sig) → Buf (Elt Ideal) ℓ)

/-! ## The index maps over the grid -/

theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 :=
  (by decide +kernel : ∀ t : Fin grid0.N, win0_2.index t 0 = 0)
theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)

/-- The batch of a grid point. -/
def bt (t : Fin cfg0.N) : Fin 16 := ⟨t.val / 4, by have := t.isLt; have hN : cfg0.N = 64 := N_0; omega⟩

/-! ## The arrays as the region finds them -/

/-- The concatenated weight [Wq | Wk | Wv]. -/
theorem V_wcat (c : Dev nD) : (V m c main_v0 : S512x1536.Idx → Elt Ideal .f32)
    = concatenate S512x1536 1 [⟨S512x512, m ((c : Thread nD τ).loc main_arg1)⟩, ⟨S512x512, m ((c : Thread nD τ).loc main_arg3)⟩, ⟨S512x512, m ((c : Thread nD τ).loc main_arg5)⟩] concatenates_S512x512_S512x512_S512x512_S512x1536_d1 := by
  dsimp only [V, hostOps0]; after_results; rfl

/-- The concatenated bias [bq | bk | bv]. -/
theorem V_bcat (c : Dev nD) : (V m c main_v1 : S1536.Idx → Elt Ideal .f32)
    = concatenate S1536 0 [⟨S512, m ((c : Thread nD τ).loc main_arg2)⟩, ⟨S512, m ((c : Thread nD τ).loc main_arg4)⟩, ⟨S512, m ((c : Thread nD τ).loc main_arg6)⟩] concatenates_S512_S512_S512_S1536_d0 := by
  dsimp only [V, hostOps0]; after_results; rfl

/-! ## The input blocks -/

/-- Batch b of x as a [1, 2048, 512] block. -/
def xb (c : Dev nD) (b : Fin 16) : FVec Ideal S1x2048x512 .f32 :=
  fun y => m ((c : Thread nD τ).loc main_arg0) (ix3 b (y 1) (y 2))

theorem iblk0_eq (c : Dev nD) (t : Fin cfg0.N) : (iblk m c 0 t : S1x2048x512.Idx → Elt Ideal .f32) = xb m c (bt t) := by
  funext y
  unfold iblk xb
  rw [View.read_apply]
  show V m c main_arg0 (((cfg0.win 0).blk t).view.emb y) = _
  rw [V_main_arg0]
  refine congrArg _ (funext fun a => Fin.ext ?_)
  have h0 : (y 0).val < 1 := (y 0).isLt
  match a with
  | ⟨0, _⟩ => show win0_0.index t 0 * 1 + 1 * (y 0).val = t.val / 4; rw [(idx0 t).1]; omega
  | ⟨1, _⟩ => show win0_0.index t 1 * 2048 + 1 * (y 1).val = (y 1).val; rw [(idx0 t).2.1]; omega
  | ⟨2, _⟩ => show win0_0.index t 2 * 512 + 1 * (y 2).val = (y 2).val; rw [(idx0 t).2.2]; omega

theorem iblk1_eq (c : Dev nD) (t : Fin cfg0.N) : (iblk m c 1 t : S512x1536.Idx → Elt Ideal .f32) = V m c main_v0 := by
  funext y
  unfold iblk
  rw [View.read_apply]
  show V m c main_v0 (((cfg0.win 1).blk t).view.emb y) = V m c main_v0 y
  refine congrArg _ (funext fun a => Fin.ext ?_)
  match a with
  | ⟨0, _⟩ => show win0_1.index t 0 * 512 + 1 * (y 0).val = (y 0).val; rw [(idx1 t).1]; omega
  | ⟨1, _⟩ => show win0_1.index t 1 * 1536 + 1 * (y 1).val = (y 1).val; rw [(idx1 t).2]; omega

theorem iblk2_eq (c : Dev nD) (t : Fin cfg0.N) : (iblk m c 2 t : S1536.Idx → Elt Ideal .f32) = V m c main_v1 := by
  funext y
  unfold iblk
  rw [View.read_apply]
  show V m c main_v1 (((cfg0.win 2).blk t).view.emb y) = V m c main_v1 y
  refine congrArg _ (funext fun a => Fin.ext ?_)
  match a with
  | ⟨0, _⟩ => show win0_2.index t 0 * 1536 + 1 * (y 0).val = (y 0).val; rw [idx2 t]; omega

/-! ## The scratch and the output buffer at every point -/

/-- The projected rows [q | k | v] of batch b. -/
def prow (c : Dev nD) (b : Fin 16) : FVec Ideal S2048x1536 .bf16 :=
  k0_pay1 (F := Ideal) (xb m c b) (V m c main_v0) (V m c main_v1)

/-- After every point the scratch holds the projected rows of the point's batch. -/
theorem scratch_eq (c : Dev nD) (n : ℕ) : ∀ (h : n < cfg0.N), (outsAt0 m c n h).2 = prow m c (bt ⟨n, h⟩) := by
  induction n using Nat.strong_induction_on with
  | _ n ih =>
    intro h
    by_cases h0 : n % 4 = 0
    · refine (congrArg Prod.snd (outsAt0_A m c ⟨n, h⟩ h0)).trans ?_
      dsimp only
      rw [sout_A, iblk0_eq, iblk1_eq, iblk2_eq]; rfl
    · have hpos : n ≠ 0 := fun e => h0 (by rw [e])
      refine (congrArg Prod.snd (outsAt0_B m c ⟨n, h⟩ h0)).trans ?_
      dsimp only
      rw [ih (n - 1) (by omega)]
      exact congrArg (prow m c) (Fin.ext (by show (n - 1) / 4 = n / 4; omega))

/-- After point t the output buffer holds the attention payload of the query tile's rows and of the key and value
    columns of the batch's projected rows. -/
theorem out_eq (c : Dev nD) (t : Fin cfg0.N) : (outsAt0 m c t.val t.isLt).1
    = k0_pay2 (F := Ideal) (View.ld (prow m c (bt t)) (rq (grid0.coords t))) (View.ld (prow m c (bt t)) rk) (View.ld (prow m c (bt t)) rv) := by
  by_cases h0 : t.val % 4 = 0
  · rw [outsAt0_A m c t h0]
    dsimp only
    rw [out_A, iblk0_eq, iblk1_eq, iblk2_eq]; rfl
  · rw [outsAt0_B m c t h0]
    dsimp only
    rw [out_B, scratch_eq]
    have hb : bt ⟨t.val - 1, Nat.lt_of_le_of_lt (Nat.sub_le _ _) t.isLt⟩ = bt t := Fin.ext (by show (t.val - 1) / 4 = t.val / 4; omega)
    rw [hb]

end Cert.KernelIdeal.Hand

end
-- ==== Proof.Rows.lean ====
/-
  The idealized kernel's result array is the specification's array.

  The projected rows of batch b, read at row s and at columns e, 512 + e and 1024 + e, are the query, key and value
  projections of (b, s) at e: column e' of the concatenated weight is column e of the matrix whose third of the columns
  holds e', and likewise for the bias. The query tile of point t is rows 512 (t % 4) + r of those rows. So what point t
  writes back is the specification's array read through the output window's block at t, and the 64 blocks tile the
  array: row s of batch b lies in the block of point 4 b + s / 512.
-/
import proofs.«156609_j80891414053563_2_alg».proof.Proof.Blocks

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

open Idealize.ShloMosaic.ValueIdx
open Cert.Attn

variable (m : (ℓ : Loc nD τ sig) → Buf (Elt Ideal) ℓ)

/-! ## The concatenated operands at a column -/

theorem wcat_q (c : Dev nD) (d e : Fin 512) :
    (V m c main_v0 : S512x1536.Idx → Elt Ideal .f32) (ix2 d (⟨e.val, by omega⟩ : Fin 1536)) = m ((c : Thread nD τ).loc main_arg1) (ix2 d e) := by
  rw [V_wcat]
  refine concatenate_apply_piece (α := Elt Ideal .f32) (t := S512x1536) (1 : Fin 2) [⟨S512x512, m ((c : Thread nD τ).loc main_arg1)⟩, ⟨S512x512, m ((c : Thread nD τ).loc main_arg3)⟩, ⟨S512x512, m ((c : Thread nD τ).loc main_arg5)⟩] concatenates_S512x512_S512x512_S512x512_S512x1536_d1 (ix2 d (⟨e.val, by omega⟩ : Fin 1536)) 0 ?_ S512x512 _ rfl rfl 0 rfl (ix2 d e)
    (fun b hb => by match b with | ⟨0, _⟩ => rfl | ⟨1, _⟩ => exact absurd (Fin.ext rfl) hb) (by show 0 + e.val = e.val; omega)
  show 0 < 3; omega

theorem wcat_k (c : Dev nD) (d e : Fin 512) :
    (V m c main_v0 : S512x1536.Idx → Elt Ideal .f32) (ix2 d (⟨512 + e.val, by omega⟩ : Fin 1536)) = m ((c : Thread nD τ).loc main_arg3) (ix2 d e) := by
  rw [V_wcat]
  refine concatenate_apply_piece (α := Elt Ideal .f32) (t := S512x1536) (1 : Fin 2) [⟨S512x512, m ((c : Thread nD τ).loc main_arg1)⟩, ⟨S512x512, m ((c : Thread nD τ).loc main_arg3)⟩, ⟨S512x512, m ((c : Thread nD τ).loc main_arg5)⟩] concatenates_S512x512_S512x512_S512x512_S512x1536_d1 (ix2 d (⟨512 + e.val, by omega⟩ : Fin 1536)) 1 ?_ S512x512 _ rfl rfl 512 rfl (ix2 d e)
    (fun b hb => by match b with | ⟨0, _⟩ => rfl | ⟨1, _⟩ => exact absurd (Fin.ext rfl) hb) rfl
  show 1 < 3; omega

theorem wcat_v (c : Dev nD) (d e : Fin 512) :
    (V m c main_v0 : S512x1536.Idx → Elt Ideal .f32) (ix2 d (⟨1024 + e.val, by omega⟩ : Fin 1536)) = m ((c : Thread nD τ).loc main_arg5) (ix2 d e) := by
  rw [V_wcat]
  refine concatenate_apply_piece (α := Elt Ideal .f32) (t := S512x1536) (1 : Fin 2) [⟨S512x512, m ((c : Thread nD τ).loc main_arg1)⟩, ⟨S512x512, m ((c : Thread nD τ).loc main_arg3)⟩, ⟨S512x512, m ((c : Thread nD τ).loc main_arg5)⟩] concatenates_S512x512_S512x512_S512x512_S512x1536_d1 (ix2 d (⟨1024 + e.val, by omega⟩ : Fin 1536)) 2 ?_ S512x512 _ rfl rfl 1024 rfl (ix2 d e)
    (fun b hb => by match b with | ⟨0, _⟩ => rfl | ⟨1, _⟩ => exact absurd (Fin.ext rfl) hb) rfl
  show 2 < 3; omega

theorem bcat_q (c : Dev nD) (e : Fin 512) :
    (V m c main_v1 : S1536.Idx → Elt Ideal .f32) (ix1 (⟨e.val, by omega⟩ : Fin 1536)) = m ((c : Thread nD τ).loc main_arg2) (ix1 e) := by
  rw [V_bcat]
  refine concatenate_apply_piece (α := Elt Ideal .f32) (t := S1536) (0 : Fin 1) [⟨S512, m ((c : Thread nD τ).loc main_arg2)⟩, ⟨S512, m ((c : Thread nD τ).loc main_arg4)⟩, ⟨S512, m ((c : Thread nD τ).loc main_arg6)⟩] concatenates_S512_S512_S512_S1536_d0 (ix1 (⟨e.val, by omega⟩ : Fin 1536)) 0 ?_ S512 _ rfl rfl 0 rfl (ix1 e)
    (fun b hb => absurd (Subsingleton.elim _ _) hb) (by show 0 + e.val = e.val; omega)
  show 0 < 3; omega

theorem bcat_k (c : Dev nD) (e : Fin 512) :
    (V m c main_v1 : S1536.Idx → Elt Ideal .f32) (ix1 (⟨512 + e.val, by omega⟩ : Fin 1536)) = m ((c : Thread nD τ).loc main_arg4) (ix1 e) := by
  rw [V_bcat]
  refine concatenate_apply_piece (α := Elt Ideal .f32) (t := S1536) (0 : Fin 1) [⟨S512, m ((c : Thread nD τ).loc main_arg2)⟩, ⟨S512, m ((c : Thread nD τ).loc main_arg4)⟩, ⟨S512, m ((c : Thread nD τ).loc main_arg6)⟩] concatenates_S512_S512_S512_S1536_d0 (ix1 (⟨512 + e.val, by omega⟩ : Fin 1536)) 1 ?_ S512 _ rfl rfl 512 rfl (ix1 e)
    (fun b hb => absurd (Subsingleton.elim _ _) hb) rfl
  show 1 < 3; omega

theorem bcat_v (c : Dev nD) (e : Fin 512) :
    (V m c main_v1 : S1536.Idx → Elt Ideal .f32) (ix1 (⟨1024 + e.val, by omega⟩ : Fin 1536)) = m ((c : Thread nD τ).loc main_arg6) (ix1 e) := by
  rw [V_bcat]
  refine concatenate_apply_piece (α := Elt Ideal .f32) (t := S1536) (0 : Fin 1) [⟨S512, m ((c : Thread nD τ).loc main_arg2)⟩, ⟨S512, m ((c : Thread nD τ).loc main_arg4)⟩, ⟨S512, m ((c : Thread nD τ).loc main_arg6)⟩] concatenates_S512_S512_S512_S1536_d0 (ix1 (⟨1024 + e.val, by omega⟩ : Fin 1536)) 2 ?_ S512 _ rfl rfl 1024 rfl (ix1 e)
    (fun b hb => absurd (Subsingleton.elim _ _) hb) rfl
  show 2 < 3; omega

/-! ## The projected rows at a column -/

theorem prow_q (c : Dev nD) (b : Fin 16) (s : Fin 2048) (e : Fin 512) :
    prow m c b (ix2 s (⟨e.val, by omega⟩ : Fin 1536))
      = proj (m ((c : Thread nD τ).loc main_arg0)) (m ((c : Thread nD τ).loc main_arg1)) (m ((c : Thread nD τ).loc main_arg2)) b s e := by
  unfold prow
  rw [pay1_apply, bcat_q]
  unfold proj
  refine congrArg (· + _) (Finset.sum_congr rfl fun d _ => ?_)
  rw [wcat_q]; rfl

theorem prow_k (c : Dev nD) (b : Fin 16) (s : Fin 2048) (e : Fin 512) :
    prow m c b (ix2 s (⟨512 + e.val, by omega⟩ : Fin 1536))
      = proj (m ((c : Thread nD τ).loc main_arg0)) (m ((c : Thread nD τ).loc main_arg3)) (m ((c : Thread nD τ).loc main_arg4)) b s e := by
  unfold prow
  rw [pay1_apply, bcat_k]
  unfold proj
  refine congrArg (· + _) (Finset.sum_congr rfl fun d _ => ?_)
  rw [wcat_k]; rfl

theorem prow_v (c : Dev nD) (b : Fin 16) (s : Fin 2048) (e : Fin 512) :
    prow m c b (ix2 s (⟨1024 + e.val, by omega⟩ : Fin 1536))
      = proj (m ((c : Thread nD τ).loc main_arg0)) (m ((c : Thread nD τ).loc main_arg5)) (m ((c : Thread nD τ).loc main_arg6)) b s e := by
  unfold prow
  rw [pay1_apply, bcat_v]
  unfold proj
  refine congrArg (· + _) (Finset.sum_congr rfl fun d _ => ?_)
  rw [wcat_v]; rfl

/-! ## The three rectangles at an index -/

theorem ld_k (S : Vec Ideal S2048x1536 .bf16) (j : Fin 2048) (e : Fin 512) :
    (View.ld S rk : Vec Ideal S2048x512 .bf16) (ix2 j e) = S (ix2 j (⟨512 + e.val, by omega⟩ : Fin 1536)) := by
  show S (rk.emb (ix2 j e)) = _
  refine congrArg S (funext fun a => Fin.ext ?_)
  match a with
  | ⟨0, _⟩ => show 0 + 1 * j.val = j.val; omega
  | ⟨1, _⟩ => show 512 + 1 * e.val = 512 + e.val; omega

theorem ld_v (S : Vec Ideal S2048x1536 .bf16) (j : Fin 2048) (e : Fin 512) :
    (View.ld S rv : Vec Ideal S2048x512 .bf16) (ix2 j e) = S (ix2 j (⟨1024 + e.val, by omega⟩ : Fin 1536)) := by
  show S (rv.emb (ix2 j e)) = _
  refine congrArg S (funext fun a => Fin.ext ?_)
  match a with
  | ⟨0, _⟩ => show 0 + 1 * j.val = j.val; omega
  | ⟨1, _⟩ => show 1024 + 1 * e.val = 1024 + e.val; omega

theorem ld_q (S : Vec Ideal S2048x1536 .bf16) (i : grid0.Coords) (r e : Fin 512) (s : Fin 2048) (hs : s.val = 512 * (i 1).val + r.val) :
    (View.ld S (rq i) : Vec Ideal S512x512 .bf16) (ix2 r e) = S (ix2 s (⟨e.val, by omega⟩ : Fin 1536)) := by
  show S ((rq i).emb (ix2 r e)) = _
  refine congrArg S (funext fun a => Fin.ext ?_)
  match a with
  | ⟨0, _⟩ => show k0_off1 i 0 + 1 * r.val = s.val; rw [k0_off1_eq i, hs]; show 512 * (i 1).val + 1 * r.val = _; omega
  | ⟨1, _⟩ => show k0_off1 i 1 + 1 * e.val = e.val; rw [k0_off1_eq i]; show 0 + 1 * e.val = _; omega

end Cert.KernelIdeal.Hand

end
-- ==== Proof.Final.lean ====
/-
  The idealized kernel's run, read: its result array ends at the specification's array of the launch contents.

  What point t writes back is the specification's array read through the output window's block at t: row r and column d
  of the block is row 512 (t % 4) + r of batch t / 4 at column d, and there the attention payload of the query tile and
  of the key and value columns of the batch's projected rows is the specification's entry. Every index (b, s, d) of the
  array lies in the block of point 4 b + s / 512, and every point writes its block back, so the blocks cover the array.
-/
import proofs.«156609_j80891414053563_2_alg».proof.Proof.Rows

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

open Idealize.ShloMosaic.ValueIdx
open Cert.Attn

variable (m : (ℓ : Loc nD τ sig) → Buf (Elt Ideal) ℓ) (ρ : Dev nD → PrngReg)

/-- The query-tile coordinate of a grid point. -/
theorem coord1 : ∀ t : Fin cfg0.N, ((grid0.coords t) 1).val = t.val % 4 :=
  (by decide +kernel : ∀ t : Fin grid0.N, ((grid0.coords t) 1).val = t.val % 4)

/-- The specification's array of the launch contents of the seven arguments. -/
abbrev Gm (c : Dev nD) : S16x2048x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point t writes back. -/
theorem flushed_eq (c : Dev nD) (t : Fin cfg0.N) (hf : (cfg0.win 3).flush t = true) :
    (dats m 0 c).flushed 3 t = ((cfg0.win 3).blk t).view.read (Elt Ideal) (Gm m c) := by
  show (cfg0.win 3).cut (grid0.coords t) ((dats m 0 c).after 3 t) = _
  rw [after0_3, out_eq]
  funext y
  rw [View.read_apply]
  show k0_pay2 (F := Ideal) _ _ _ y = Gm m c (((cfg0.win 3).blk t).view.emb y)
  obtain ⟨u, r, d, rfl⟩ : ∃ (u : Fin 1) (r d : Fin 512), y = ix3 u r d := ⟨y 0, y 1, y 2, eq_ix3 y⟩
  obtain rfl : u = 0 := Subsingleton.elim _ _
  rw [pay2_apply]
  have hs : 512 * (t.val % 4) + r.val < 2048 := by have := r.isLt; have := Nat.mod_lt t.val (by decide : 0 < 4); omega
  have hemb : ((cfg0.win 3).blk t).view.emb (ix3 (0 : Fin 1) r d) = ix3 (bt t) (⟨512 * (t.val % 4) + r.val, hs⟩ : Fin 2048) d :=
    funext fun a => Fin.ext (by
      match a with
      | ⟨0, _⟩ => show win0_3.index t 0 * 1 + 1 * 0 = t.val / 4; rw [(idx3 t).1]; omega
      | ⟨1, _⟩ => show win0_3.index t 1 * 512 + 1 * r.val = 512 * (t.val % 4) + r.val; rw [(idx3 t).2.1]; omega
      | ⟨2, _⟩ => show win0_3.index t 2 * 512 + 1 * d.val = d.val; rw [(idx3 t).2.2]; omega)
  rw [hemb]
  have hq : (fun e : Fin 512 => (View.ld (prow m c (bt t)) (rq (grid0.coords t)) : Vec Ideal S512x512 .bf16) (ix2 r e))
      = proj (m ((c : Thread nD τ).loc main_arg0)) (m ((c : Thread nD τ).loc main_arg1)) (m ((c : Thread nD τ).loc main_arg2)) (bt t) (⟨512 * (t.val % 4) + r.val, hs⟩ : Fin 2048) :=
    funext fun e => (ld_q _ _ r e (⟨512 * (t.val % 4) + r.val, hs⟩ : Fin 2048) (by show 512 * (t.val % 4) + r.val = 512 * ((grid0.coords t) 1).val + r.val; rw [coord1 t])).trans
      (prow_q m c (bt t) _ e)
  have hk : (fun (j : Fin 2048) (e : Fin 512) => (View.ld (prow m c (bt t)) rk : Vec Ideal S2048x512 .bf16) (ix2 j e))
      = proj (m ((c : Thread nD τ).loc main_arg0)) (m ((c : Thread nD τ).loc main_arg3)) (m ((c : Thread nD τ).loc main_arg4)) (bt t) :=
    funext fun j => funext fun e => (ld_k _ j e).trans (prow_k m c (bt t) j e)
  have hv : (fun (j : Fin 2048) (e : Fin 512) => (View.ld (prow m c (bt t)) rv : Vec Ideal S2048x512 .bf16) (ix2 j e))
      = proj (m ((c : Thread nD τ).loc main_arg0)) (m ((c : Thread nD τ).loc main_arg5)) (m ((c : Thread nD τ).loc main_arg6)) (bt t) :=
    funext fun j => funext fun e => (ld_v _ j e).trans (prow_v m c (bt t) j e)
  rw [hq, hk, hv]
  rfl

/-- An index of the result array is in point t's block iff each coordinate is in the block's range on its axis. -/
theorem mem_blk3 (t : Fin cfg0.N) (i : S16x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v2).slice (win0_3.rect t)).set ↔ _
  rw [View.set_slice_whole, Rect.mem_set_unit]
  exact Iff.rfl

/-- The 64 blocks tile the array: (b, s, d) is in the block of point 4 b + s / 512. -/
theorem cover (i : S16x2048x512.Idx) : ∃ t : Fin cfg0.N, (cfg0.win 3).flush t = true ∧ i ∈ ((cfg0.win 3).blk t).view.set := by
  have hN : cfg0.N = 64 := N_0
  have h0 : (i 0).val < 16 := (i 0).isLt
  have h1 : (i 1).val < 2048 := (i 1).isLt
  have h2 : (i 2).val < 512 := (i 2).isLt
  have ht : 4 * (i 0).val + (i 1).val / 512 < cfg0.N := by omega
  refine ⟨⟨4 * (i 0).val + (i 1).val / 512, ht⟩, flush0_3 _, ?_⟩
  rw [mem_blk3]
  have e0 : win0_3.index ⟨4 * (i 0).val + (i 1).val / 512, ht⟩ 0 = (4 * (i 0).val + (i 1).val / 512) / 4 := (idx3 _).1
  have e1 : win0_3.index ⟨4 * (i 0).val + (i 1).val / 512, ht⟩ 1 = (4 * (i 0).val + (i 1).val / 512) % 4 := (idx3 _).2.1
  have e2 : win0_3.index ⟨4 * (i 0).val + (i 1).val / 512, ht⟩ 2 = 0 := (idx3 _).2.2
  intro a
  match a with
  | ⟨0, _⟩ =>
    show win0_3.index _ 0 * 1 ≤ (i 0).val ∧ (i 0).val < win0_3.index _ 0 * 1 + 1
    rw [e0]; omega
  | ⟨1, _⟩ =>
    show win0_3.index _ 1 * 512 ≤ (i 1).val ∧ (i 1).val < win0_3.index _ 1 * 512 + 512
    rw [e1]; omega
  | ⟨2, _⟩ =>
    show win0_3.index _ 2 * 512 ≤ (i 2).val ∧ (i 2).val < win0_3.index _ 2 * 512 + 512
    rw [e2]; omega

/-- The result array after the run. -/
theorem final (c : Dev nD) : (dats m 0 c).arrAt 3 cfg0.N = Gm m c :=
  (dats m 0 c).arrAt_eq_of_cover 3 (Gm m c) (flushed_eq m c) cover

/-- The run, read: the result array at the specification's array, the seven arguments unchanged. -/
theorem run : θ_run defs (onTc (τ := τ) (main (F := Ideal))) ⟨m, fun _ => 0, ρ⟩ fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Hand

end
-- ==== Proof.RefValue.lean ====
/-
  The reference's result is the specification's array, index by index, over the extended reals.

  Each stage of the reference is read at coordinates: the three projections at (b, s, e) are x W + bias; the batched
  product of queries against keys, scaled, is the score; the reduction by maximum over the key axis, folded from minus
  infinity, and then taken once more against minus infinity (which changes nothing), is the row maximum; the shifted
  exponential, its sum from zero over the key axis, the quotient, and the batched product against the values give the
  output entry. The keep-dimension broadcasts read their operand at the row.
-/
import proofs.«156609_j80891414053563_2_alg».proof.Proof.Gen.ReferenceIdeal.Read
import proofs.«156609_j80891414053563_2_alg».proof.Proof.Attn
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Attn

variable (x0 : (⟨S16x2048x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))

/-! ## The index functions of the stages, at coordinates -/

section Indices
variable (b : Fin 16) (s j : Fin 2048) (e d k : Fin 512)

theorem l0 : lidx_main_v0 (ix3 b s e) k = ix3 b s k := funext fun a => by match a with | ⟨0, _⟩ => rfl | ⟨1, _⟩ => rfl | ⟨2, _⟩ => rfl
theorem r0 : ridx_main_v0 (ix3 b s e) k = ix2 k e := funext fun a => by match a with | ⟨0, _⟩ => rfl | ⟨1, _⟩ => rfl
theorem l4 : lidx_main_v4 (ix3 b s e) k = ix3 b s k := funext fun a => by match a with | ⟨0, _⟩ => rfl | ⟨1, _⟩ => rfl | ⟨2, _⟩ => rfl
theorem r4 : ridx_main_v4 (ix3 b s e) k = ix2 k e := funext fun a => by match a with | ⟨0, _⟩ => rfl | ⟨1, _⟩ => rfl
theorem l8 : lidx_main_v8 (ix3 b s e) k = ix3 b s k := funext fun a => by match a with | ⟨0, _⟩ => rfl | ⟨1, _⟩ => rfl | ⟨2, _⟩ => rfl
theorem r8 : ridx_main_v8 (ix3 b s e) k = ix2 k e := funext fun a => by match a with | ⟨0, _⟩ => rfl | ⟨1, _⟩ => rfl
theorem i2 : idx_main_v1 (idx_main_v2 (ix3 b s e)) = ix1 e := funext fun a => by match a with | ⟨0, _⟩ => rfl
theorem i6 : idx_main_v5 (idx_main_v6 (ix3 b s e)) = ix1 e := funext fun a => by match a with | ⟨0, _⟩ => rfl
theorem i10 : idx_main_v9 (idx_main_v10 (ix3 b s e)) = ix1 e := funext fun a => by match a with | ⟨0, _⟩ => rfl
theorem l12 : lidx_main_v12 (ix3 b s j) k = ix3 b s k := funext fun a => by match a with | ⟨0, _⟩ => rfl | ⟨1, _⟩ => rfl | ⟨2, _⟩ => rfl
theorem r12 : ridx_main_v12 (ix3 b s j) k = ix3 b j k := funext fun a => by match a with | ⟨0, _⟩ => rfl | ⟨1, _⟩ => rfl | ⟨2, _⟩ => rfl
theorem i19 : idx_main_v18 (idx_main_v19 (ix3 b s j)) = ix2 b s := funext fun a => by match a with | ⟨0, _⟩ => rfl | ⟨1, _⟩ => rfl
theorem i22 (j' : Fin 2048) : idx_main_v22 (ix2 b s) j' = ix3 b s j' := funext fun a => by match a with | ⟨0, _⟩ => rfl | ⟨1, _⟩ => rfl | ⟨2, _⟩ => rfl
theorem i24 : idx_main_v23 (idx_main_v24 (ix3 b s j)) = ix2 b s := funext fun a => by match a with | ⟨0, _⟩ => rfl | ⟨1, _⟩ => rfl
theorem l26 (j' : Fin 2048) : lidx_main_v26 (ix3 b s d) j' = ix3 b s j' := funext fun a => by match a with | ⟨0, _⟩ => rfl | ⟨1, _⟩ => rfl | ⟨2, _⟩ => rfl
theorem r26 (j' : Fin 2048) : ridx_main_v26 (ix3 b s d) j' = ix3 b j' d := funext fun a => by match a with | ⟨0, _⟩ => rfl | ⟨1, _⟩ => rfl | ⟨2, _⟩ => rfl

/-- The index a reduction over the key axis of a [16, 2048, 2048] array inserts at (b, s) is (b, s, j). -/
theorem lift3 (h : S16x2048x2048.Reduces [2] S16x2048) : h.lift (ix2 b s) j = ix3 b s j :=
  funext fun a => Fin.ext (by match a with | ⟨0, _⟩ => rfl | ⟨1, _⟩ => rfl | ⟨2, _⟩ => rfl)

end Indices

/-! ## The stages -/

/-- The queries. -/
theorem q_apply (b : Fin 16) (s : Fin 2048) (e : Fin 512) :
    val_main_v3 (F := Ideal) x0 x1 x2 (ix3 b s e) = proj x0 x1 x2 b s e := by
  rw [val_main_v3_apply, val_main_v0_apply, val_main_v2_apply, val_main_v1_apply]
  simp only [l0, r0, i2]
  rfl

/-- The keys. -/
theorem k_apply (b : Fin 16) (s : Fin 2048) (e : Fin 512) :
    val_main_v7 (F := Ideal) x0 x3 x4 (ix3 b s e) = proj x0 x3 x4 b s e := by
  rw [val_main_v7_apply, val_main_v4_apply, val_main_v6_apply, val_main_v5_apply]
  simp only [l4, r4, i6]
  rfl

/-- The values. -/
theorem v_apply (b : Fin 16) (s : Fin 2048) (e : Fin 512) :
    val_main_v11 (F := Ideal) x0 x5 x6 (ix3 b s e) = proj x0 x5 x6 b s e := by
  rw [val_main_v11_apply, val_main_v8_apply, val_main_v10_apply, val_main_v9_apply]
  simp only [l8, r8, i10]
  rfl

/-- Row (b, s)'s scaled scores against the keys of batch b. -/
abbrev σ (b : Fin 16) (s : Fin 2048) : Fin 2048 → EReal := score (proj x0 x1 x2 b s) (proj x0 x3 x4 b)

theorem sim_apply (b : Fin 16) (s j : Fin 2048) :
    val_main_v14 (F := Ideal) x0 x1 x2 x3 x4 (ix3 b s j) = σ x0 x1 x2 x3 x4 b s j := by
  rw [val_main_v14_apply, val_main_v12_apply, val_main_v13_apply, val_main_cst_apply]
  simp only [l12, r12, q_apply, k_apply]
  rfl

theorem max_apply (b : Fin 16) (s : Fin 2048) :
    val_main_v17 (F := Ideal) x0 x1 x2 x3 x4 (ix2 b s) = rowMax (σ x0 x1 x2 x3 x4 b s) := by
  have hR : S16x2048x2048.Reduces [2] S16x2048 := by decide
  have hf : (val_main_v14 (F := Ideal) x0 x1 x2 x3 x4 ∘ hR.lift (ix2 b s)) = σ x0 x1 x2 x3 x4 b s :=
    funext fun j => (congrArg (val_main_v14 (F := Ideal) x0 x1 x2 x3 x4) (lift3 b s j hR)).trans (sim_apply x0 x1 x2 x3 x4 b s j)
  have h15 : val_main_v15 (F := Ideal) x0 x1 x2 x3 x4 (ix2 b s) = rowMax (σ x0 x1 x2 x3 x4 b s) := by
    unfold val_main_v15
    refine (Host.reduce_eq_fold_single (α := Ideal .f32) (s := S16x2048x2048) (t := S16x2048) (a := 2) (u := S_)
      (FloatOps.maximumf (F := Ideal) (φ := .f32)) (val_main_v14 (F := Ideal) x0 x1 x2 x3 x4) (val_main_cst_0 (F := Ideal))
      reducesTo_S16x2048x2048_S16x2048_d2 hR h_S_ (ix2 b s)).trans ?_
    rw [hf]
    rfl
  refine (val_main_v17_apply x0 x1 x2 x3 x4 (ix2 b s)).trans ?_
  rw [h15, val_main_v16_apply, val_main_cst_1_apply]
  exact max_floor_rowMax (σ x0 x1 x2 x3 x4 b s)

theorem maxb_apply (b : Fin 16) (s j : Fin 2048) :
    val_main_v19 (F := Ideal) x0 x1 x2 x3 x4 (ix3 b s j) = rowMax (σ x0 x1 x2 x3 x4 b s) := by
  rw [val_main_v19_apply, val_main_v18_apply, i19]
  exact max_apply x0 x1 x2 x3 x4 b s

theorem exp_apply (b : Fin 16) (s j : Fin 2048) :
    val_main_v21 (F := Ideal) x0 x1 x2 x3 x4 (ix3 b s j) = expo (σ x0 x1 x2 x3 x4 b s) j := by
  rw [val_main_v21_apply, val_main_v20_apply, sim_apply, maxb_apply]
  rfl

theorem sum_apply (b : Fin 16) (s : Fin 2048) :
    val_main_v22 (F := Ideal) x0 x1 x2 x3 x4 (ix2 b s) = ∑ j : Fin 2048, expo (σ x0 x1 x2 x3 x4 b s) j := by
  rw [val_main_v22_apply, val_main_cst_2_apply]
  simp only [i22, exp_apply]
  show Ideal.ofBits .f32 0x00000000#32 + _ = _
  rw [Ideal.ofBits_zero_f32, zero_add]

theorem sumb_apply (b : Fin 16) (s j : Fin 2048) :
    val_main_v24 (F := Ideal) x0 x1 x2 x3 x4 (ix3 b s j) = ∑ j' : Fin 2048, expo (σ x0 x1 x2 x3 x4 b s) j' := by
  rw [val_main_v24_apply, val_main_v23_apply, i24]
  exact sum_apply x0 x1 x2 x3 x4 b s

theorem weight_apply (b : Fin 16) (s j : Fin 2048) :
    val_main_v25 (F := Ideal) x0 x1 x2 x3 x4 (ix3 b s j) = weight (σ x0 x1 x2 x3 x4 b s) j := by
  rw [val_main_v25_apply, exp_apply, sumb_apply]
  rfl

/-- The reference's result is the specification's array. -/
theorem result_eq : val_main_v26 (F := Ideal) x0 x1 x2 x3 x4 x5 x6 = G x0 x1 x2 x3 x4 x5 x6 := by
  funext i
  obtain ⟨b, s, d, rfl⟩ : ∃ (b : Fin 16) (s : Fin 2048) (d : Fin 512), i = ix3 b s d := ⟨i 0, i 1, i 2, eq_ix3 i⟩
  rw [val_main_v26_apply]
  simp only [l26, r26, weight_apply, v_apply]
  rfl

end Cert.ReferenceIdeal.RefValue

end
-- ==== Proof.lean ====
/-
  Fused self-attention against its jnp reference: the three frames, the idealization, and the equivalence over the
  extended reals.

  The kernel concatenates the three projection weights and biases on the host and launches one region over a grid of
  16 batches by 4 query tiles. At the first tile of a batch the body projects the batch's 2048 rows once, x Wcat + bcat,
  into a scratch of [2048, 1536] that it carries through the batch's other tiles; at every tile it reads the tile's 512
  query rows and all key and value rows out of the scratch, forms the scores q kᵀ / 8, subtracts each row's maximum,
  exponentiates, divides by the row's sum, and multiplies by the values. The reference computes the three projections
  separately, the batched scores, jax's softmax (the same maximum, exponential, sum and quotient, with one more maximum
  against minus infinity, which changes nothing) and the batched product with the values.

  Frames: each kernel program runs to the end at every grid point in either case of its one branch, faults nowhere,
  and stores only into its scratch and its output window, so the seven arguments end as they began; the reference is a
  straight line of host operations. The idealization rewrote no operation. At the ideal instance a change of float
  format is the identity, a matrix product is a finite sum of products and a reduction a finite sum or a fold of max,
  so both result arrays are the same expression of the arguments index by index: the concatenation and the tiling only
  re-index, and no law of the extended reals that could fail at an infinity is used — the precondition is never opened.
-/
import proofs.«156609_j80891414053563_2_alg».proof.Defs
import proofs.«156609_j80891414053563_2_alg».proof.Proof.Gen.Kernel
import proofs.«156609_j80891414053563_2_alg».proof.Proof.Gen.KernelIdeal
import proofs.«156609_j80891414053563_2_alg».proof.Proof.Gen.ReferenceIdeal
import proofs.«156609_j80891414053563_2_alg».proof.Proof.Gen.Pre_finite_inputs
import proofs.«156609_j80891414053563_2_alg».proof.Proof.FrameB
import proofs.«156609_j80891414053563_2_alg».proof.Proof.Final
import proofs.«156609_j80891414053563_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result array ends at the specification's array of its arguments, and the
    reference's at its composed term, which is the specification's array of arguments that agree. -/
theorem algebraic : Cert.algebraic_KernelIdeal_ReferenceIdeal := by
  intro m ρ m' ρ' _ hagree
  refine ⟨fun c => Cert.KernelIdeal.Hand.Gm m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v26_eq, Cert.ReferenceIdeal.RefValue.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
